-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x4 : Shape := ⟨3, ![64, 512, 4]⟩
abbrev S1024x2 : Shape := ⟨2, ![1024, 2]⟩
abbrev S_ : Shape := ⟨0, ![]⟩

class Facts : Prop where
  bcast_S_S64x512x4 : S_.BroadcastsInDim S64x512x4 (![] : Fin 0 → Fin S64x512x4.rank)
  reducesTo_S64x512x4_S_d0_1_2 : S64x512x4.ReducesTo [0, 1, 2] S_
  h_S_ : 0 < S_.numel
  bcast_S_S1024x2 : S_.BroadcastsInDim S1024x2 (![] : Fin 0 → Fin S1024x2.rank)
  reducesTo_S1024x2_S_d0_1 : S1024x2.ReducesTo [0, 1] S_

variable [Facts]

def fn {F : FTy → Type} [FloatOps F] (main_arg0 : FVec F S64x512x4 .f32) (main_arg1 : FVec F S1024x2 .f32) : IVec S_ 1 :=
  let main_v0 : FVec F S64x512x4 .f32 := Host.absf main_arg0
  let main_cst : FVec F S_ .f32 := constant S_ .f32 0x7F800000#32
  let main_v1 : FVec F S64x512x4 .f32 := broadcastInDim S64x512x4 ![] bcast_S_S64x512x4 main_cst
  let main_v2 : IVec S64x512x4 1 := cmpf .olt main_v0 main_v1
  let main_c : IVec S_ 1 := constantI S_ 1 1#1
  let main_v3 : IVec S_ 1 := (fun x v => Host.reduce IntOp.andi x v reducesTo_S64x512x4_S_d0_1_2 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  main_v8
-- ==== Kernel.lean ====
abbrev S64x512x4 : Shape := ⟨3, ![64, 512, 4]⟩
abbrev S1024x2 : Shape := ⟨2, ![1024, 2]⟩
abbrev S1x2 : Shape := ⟨2, ![1, 2]⟩
abbrev S2 : Shape := ⟨1, ![2]⟩
abbrev S_ : Shape := ⟨0, ![]⟩
abbrev S1023x2 : Shape := ⟨2, ![1023, 2]⟩
abbrev S1023 : Shape := ⟨1, ![1023]⟩
abbrev S1024 : Shape := ⟨1, ![1024]⟩
abbrev S1024x1 : Shape := ⟨2, ![1024, 1]⟩
abbrev S64x512x2 : Shape := ⟨3, ![64, 512, 2]⟩
abbrev S32768x2 : Shape := ⟨2, ![32768, 2]⟩
abbrev S1x1024 : Shape := ⟨2, ![1, 1024]⟩
abbrev S2x1024 : Shape := ⟨2, ![2, 1024]⟩
abbrev S32768x1 : Shape := ⟨2, ![32768, 1]⟩
abbrev S4096x2 : Shape := ⟨2, ![4096, 2]⟩
abbrev S4096x1 : Shape := ⟨2, ![4096, 1]⟩
abbrev S512x2 : Shape := ⟨2, ![512, 2]⟩
abbrev S512 : Shape := ⟨1, ![512]⟩
abbrev S512x1 : Shape := ⟨2, ![512, 1]⟩
abbrev S512x1024 : Shape := ⟨2, ![512, 1024]⟩
abbrev S64x512 : Shape := ⟨2, ![64, 512]⟩
abbrev S64x511 : Shape := ⟨2, ![64, 511]⟩
abbrev S64 : Shape := ⟨1, ![64]⟩

abbrev nBuf : Space → Nat
  | .hbm => 97
  | .vmem => 6
  | .smem => 0
  | _ => 0

abbrev bufTy : (tb : Table) → Fin (tcTables nBuf tb) → BufTy
  | .hbm, ⟨0, _⟩ => ⟨S64x512x4, .f32⟩
  | .hbm, ⟨1, _⟩ => ⟨S1024x2, .f32⟩
  | .hbm, ⟨2, _⟩ => ⟨S1x2, .f32⟩
  | .hbm, ⟨3, _⟩ => ⟨S2, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1023x2, .f32⟩
  | .hbm, ⟨9, _⟩ => ⟨S1023x2, .f32⟩
  | .hbm, ⟨10, _⟩ => ⟨S1023x2, .f32⟩
  | .hbm, ⟨11, _⟩ => ⟨S1023x2, .f32⟩
  | .hbm, ⟨12, _⟩ => ⟨S_, .f32⟩
  | .hbm, ⟨13, _⟩ => ⟨S1023, .f32⟩
  | .hbm, ⟨14, _⟩ => ⟨S1023, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .f32⟩
  | .hbm, ⟨32, _⟩ => ⟨S1024x1, .f32⟩
  | .hbm, ⟨33, _⟩ => ⟨S1x2, .f32⟩
  | .hbm, ⟨34, _⟩ => ⟨S2, .f32⟩
  | .hbm, ⟨35, _⟩ => ⟨S1x2, .f32⟩
  | .hbm, ⟨36, _⟩ => ⟨S1024x2, .f32⟩
  | .hbm, ⟨37, _⟩ => ⟨S1024x2, .f32⟩
  | .hbm, ⟨38, _⟩ => ⟨S1024x2, .f32⟩
  | .hbm, ⟨39, _⟩ => ⟨S1024x2, .f32⟩
  | .hbm, ⟨40, _⟩ => ⟨S1024x2, .f32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x2, .f32⟩
  | .hbm, ⟨60, _⟩ => ⟨S1024, .i32⟩
  | .hbm, ⟨61, _⟩ => ⟨S1024, .i1⟩
  | .hbm, ⟨62, _⟩ => ⟨S1024x1, .i1⟩
  | .hbm, ⟨63, _⟩ => ⟨S1024x2, .i1⟩
  | .hbm, ⟨64, _⟩ => ⟨S1024x2, .f32⟩
  | .hbm, ⟨65, _⟩ => ⟨S_, .i32⟩
  | .hbm, ⟨66, _⟩ => ⟨S_, .i1⟩
  | .hbm, ⟨67, _⟩ => ⟨S1024x2, .f32⟩
  | .hbm, ⟨68, _⟩ => ⟨S64x512x2, .f32⟩
  | .hbm, ⟨69, _⟩ => ⟨S32768x2, .f32⟩
  | .hbm, ⟨70, _⟩ => ⟨S1024x1, .f32⟩
  | .hbm, ⟨71, _⟩ => ⟨S1024, .f32⟩
  | .hbm, ⟨72, _⟩ => ⟨S1024x1, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1x1024, .f32⟩
  | .hbm, ⟨85, _⟩ => ⟨S1x1024, .f32⟩
  | .hbm, ⟨86, _⟩ => ⟨S2x1024, .f32⟩
  | .hbm, ⟨87, _⟩ => ⟨S32768x1, .f32⟩
  | .hbm, ⟨88, _⟩ => ⟨S64x512, .f32⟩
  | .hbm, ⟨89, _⟩ => ⟨S64x511, .f32⟩
  | .hbm, ⟨90, _⟩ => ⟨S_, .f32⟩
  | .hbm, ⟨91, _⟩ => ⟨S64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S_, .f32⟩
  | .hbm, ⟨96, _⟩ => ⟨S_, .f32⟩
  | .local _ .vmem, ⟨0, _⟩ => ⟨S4096x2, .f32⟩
  | .local _ .vmem, ⟨1, _⟩ => ⟨S4096x2, .f32⟩
  | .local _ .vmem, ⟨2, _⟩ => ⟨S2x1024, .f32⟩
  | .local _ .vmem, ⟨3, _⟩ => ⟨S1x1024, .f32⟩
  | .local _ .vmem, ⟨4, _⟩ => ⟨S4096x1, .f32⟩
  | .local _ .vmem, ⟨5, _⟩ => ⟨S4096x1, .f32⟩
  | _, _ => ⟨S64x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_v0 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v5 : BitVec 32 := Scalar.muli arg5 c1_i32_4
  let v6 : BitVec 32 := Scalar.addi c0_i32_5 v5
  let c512_i32 : BitVec 32 := 512#32
  let v7 : BitVec 32 := Scalar.muli v6 c512_i32
  v7
def k0_off1 (k0_t1 : Fin k0_t1_loop.trips) : Fin 2 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v5 : BitVec 32 := Scalar.muli arg5 c1_i32_4
  let v6 : BitVec 32 := Scalar.addi c0_i32_5 v5
  let c512_i32 : BitVec 32 := 512#32
  let v7 : BitVec 32 := Scalar.muli v6 c512_i32
  let v8 : BitVec 32 := v7
  let v9 : Index := Scalar.indexCast v8
  let c0_6 : Index := 0#32
  ![v9.toNat, 0]
def k0_off2 (k0_t1 : Fin k0_t1_loop.trips) : Fin 2 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v5 : BitVec 32 := Scalar.muli arg5 c1_i32_4
  let v6 : BitVec 32 := Scalar.addi c0_i32_5 v5
  let c512_i32 : BitVec 32 := 512#32
  let v7 : BitVec 32 := Scalar.muli v6 c512_i32
  let v8 : BitVec 32 := v7
  let v21 : Index := Scalar.indexCast v8
  let c0_9 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2_S1x2_0_0 : S1024x2.Slices ![0, 0] S1x2
  shapeCasts_S1x2_S2 : S1x2.ShapeCasts S2
  reducesTo_S2_S_d0 : S2.ReducesTo [0] S_
  h_S_ : 0 < S_.numel
  slices_S1024x2_S1023x2_1_0 : S1024x2.Slices ![1, 0] S1023x2
  slices_S1024x2_S1023x2_0_0 : S1024x2.Slices ![0, 0] S1023x2
  reducesTo_S1023x2_S1023_d1 : S1023x2.ReducesTo [1] S1023
  reducesTo_S1023_S_d0 : S1023.ReducesTo [0] S_
  bcast_S_S1024 : S_.BroadcastsInDim S1024 (![] : Fin 0 → Fin S1024.rank)
  bcast_S1024_S1024x1_0 : S1024.BroadcastsInDim S1024x1 (![0] : Fin 1 → Fin S1024x1.rank)
  bcast_S2_S1x2_1 : S2.BroadcastsInDim S1x2 (![1] : Fin 1 → Fin S1x2.rank)
  bcast_S1024x1_S1024x2_0_1 : S1024x1.BroadcastsInDim S1024x2 (![0, 1] : Fin 2 → Fin S1024x2.rank)
  bcast_S1x2_S1024x2_0_1 : S1x2.BroadcastsInDim S1024x2 (![0, 1] : Fin 2 → Fin S1024x2.rank)
  bcast_S_S1024x2 : S_.BroadcastsInDim S1024x2 (![] : Fin 0 → Fin S1024x2.rank)
  slices_S64x512x4_S64x512x2_0_0_0 : S64x512x4.Slices ![0, 0, 0] S64x512x2
  shapeCasts_S64x512x2_S32768x2 : S64x512x2.ShapeCasts S32768x2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S1024_S1x1024_1 : S1024.BroadcastsInDim S1x1024 (![1] : Fin 1 → Fin S1x1024.rank)
  concatenates_S1x1024_S1x1024_S2x1024_d0 : Shape.Concatenates [S1x1024, S1x1024] S2x1024 0
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S512x2 : 0 < S512x2.numel
  shapeCasts_S512x2_S512x2 : S512x2.ShapeCasts S512x2
  reduces_S512x2_S512 : S512x2.Reduces [1] S512
  shapeCasts_S512_S512x1 : S512.ShapeCasts S512x1
  broadcasts_S1x1024_S512x1024 : S1x1024.Broadcasts S512x1024
  reduces_S512x1024_S512 : S512x1024.Reduces [1] S512
  h_S512x1 : 0 < S512x1.numel
  shapeCasts_S32768x1_S64x512 : S32768x1.ShapeCasts S64x512
  slices_S64x512_S64x511_0_1 : S64x512.Slices ![0, 1] S64x511
  reducesTo_S64x511_S64_d1 : S64x511.ReducesTo [1] S64
  bcast_S_S64 : S_.BroadcastsInDim S64 (![] : Fin 0 → Fin S64.rank)
  reducesTo_S64_S_d0 : S64.ReducesTo [0] S_
  gather_S1024x2_S1024x1_S1024x2_1_0_n_n_0_1_12_wf : GatherDims.WF S1024x2 S1024x1 S1024x2 [1] [0] [] [0] [] 1 ![1, 2]
  dot_S512x2_S2x1024_S512x1024_1_0_0_1_n_n_wf : DotDims.WF S512x2 S2x1024 S512x1024 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x2.size a ≤ S4096x2.size a
  k0_off2_inb : ∀ k0_t1 : Fin k0_t1_loop.trips, ∀ a, (k0_off2 k0_t1) a + S512x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S32768x2.size a
  hwx0_0 : ∀ i : grid0.Coords, EltTy.bits .f32 = 32 ∨ (Rect.block (s := S32768x2) S4096x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x1024.size a
  hwx0_1 : ∀ i : grid0.Coords, EltTy.bits .f32 = 32 ∨ (Rect.block (s := S2x1024) S2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S32768x1.size a
  hwx0_3 : ∀ i : grid0.Coords, EltTy.bits .f32 = 32 ∨ (Rect.block (s := S32768x1) S4096x1.size (cc0_transform_3 i) (hinb0_3 i)).WholeWords (EltTy.packing .f32)

variable [Facts₀]

def gather_S1024x2_S1024x1_S1024x2_1_0_n_n_0_1_12 : GatherDims S1024x2 S1024x1 S1024x2 where
  offsetDims := [1]
  collapsedSliceDims := [0]
  operandBatchingDims := []
  startIndicesBatchingDims := []
  startIndexMap := [0]
  indexVectorDim := 1
  sliceSizes := ![1, 2]
  wf := gather_S1024x2_S1024x1_S1024x2_1_0_n_n_0_1_12_wf
def dot_S512x2_S2x1024_S512x1024_1_0_0_1_n_n : DotDims S512x2 S2x1024 S512x1024 where
  lhsContracting := [1]
  rhsContracting := [0]
  lhsNonContracting := [0]
  rhsNonContracting := [1]
  lhsBatch := []
  rhsBatch := []
  wf := dot_S512x2_S2x1024_S512x1024_1_0_0_1_n_n_wf

abbrev win0_0 : Pipeline.Window sig grid0 :=
  Pipeline.Window.ofSpec (Memref.whole main_v45) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x4 : Shape := ⟨3, ![64, 512, 4]⟩
abbrev S1024x2 : Shape := ⟨2, ![1024, 2]⟩
abbrev S1x2 : Shape := ⟨2, ![1, 2]⟩
abbrev S2 : Shape := ⟨1, ![2]⟩
abbrev S_ : Shape := ⟨0, ![]⟩
abbrev S1023x2 : Shape := ⟨2, ![1023, 2]⟩
abbrev S1023 : Shape := ⟨1, ![1023]⟩
abbrev S1024 : Shape := ⟨1, ![1024]⟩
abbrev S1024x1 : Shape := ⟨2, ![1024, 1]⟩
abbrev S64x512x2 : Shape := ⟨3, ![64, 512, 2]⟩
abbrev S64x512x1x2 : Shape := ⟨4, ![64, 512, 1, 2]⟩
abbrev S1x1x1024x2 : Shape := ⟨4, ![1, 1, 1024, 2]⟩
abbrev S64x512x1024x2 : Shape := ⟨4, ![64, 512, 1024, 2]⟩
abbrev S64x512x1024 : Shape := ⟨3, ![64, 512, 1024]⟩
abbrev S64x512 : Shape := ⟨2, ![64, 512]⟩
abbrev S64x511 : Shape := ⟨2, ![64, 511]⟩
abbrev S64 : Shape := ⟨1, ![64]⟩

abbrev nBuf : Space → Nat
  | .hbm => 87
  | .vmem => 0
  | .smem => 0
  | _ => 0

abbrev bufTy : (tb : Table) → Fin (tcTables nBuf tb) → BufTy
  | .hbm, ⟨0, _⟩ => ⟨S64x512x4, .f32⟩
  | .hbm, ⟨1, _⟩ => ⟨S1024x2, .f32⟩
  | .hbm, ⟨2, _⟩ => ⟨S1x2, .f32⟩
  | .hbm, ⟨3, _⟩ => ⟨S2, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1023x2, .f32⟩
  | .hbm, ⟨9, _⟩ => ⟨S1023x2, .f32⟩
  | .hbm, ⟨10, _⟩ => ⟨S1023x2, .f32⟩
  | .hbm, ⟨11, _⟩ => ⟨S1023x2, .f32⟩
  | .hbm, ⟨12, _⟩ => ⟨S_, .f32⟩
  | .hbm, ⟨13, _⟩ => ⟨S1023, .f32⟩
  | .hbm, ⟨14, _⟩ => ⟨S1023, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .f32⟩
  | .hbm, ⟨32, _⟩ => ⟨S1024x1, .f32⟩
  | .hbm, ⟨33, _⟩ => ⟨S1x2, .f32⟩
  | .hbm, ⟨34, _⟩ => ⟨S2, .f32⟩
  | .hbm, ⟨35, _⟩ => ⟨S1x2, .f32⟩
  | .hbm, ⟨36, _⟩ => ⟨S1024x2, .f32⟩
  | .hbm, ⟨37, _⟩ => ⟨S1024x2, .f32⟩
  | .hbm, ⟨38, _⟩ => ⟨S1024x2, .f32⟩
  | .hbm, ⟨39, _⟩ => ⟨S1024x2, .f32⟩
  | .hbm, ⟨40, _⟩ => ⟨S1024x2, .f32⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1024x2, .f32⟩
  | .hbm, ⟨60, _⟩ => ⟨S1024, .i32⟩
  | .hbm, ⟨61, _⟩ => ⟨S1024, .i1⟩
  | .hbm, ⟨62, _⟩ => ⟨S1024x1, .i1⟩
  | .hbm, ⟨63, _⟩ => ⟨S1024x2, .i1⟩
  | .hbm, ⟨64, _⟩ => ⟨S1024x2, .f32⟩
  | .hbm, ⟨65, _⟩ => ⟨S_, .i32⟩
  | .hbm, ⟨66, _⟩ => ⟨S_, .i1⟩
  | .hbm, ⟨67, _⟩ => ⟨S1024x2, .f32⟩
  | .hbm, ⟨68, _⟩ => ⟨S64x512x2, .f32⟩
  | .hbm, ⟨69, _⟩ => ⟨S64x512x1x2, .f32⟩
  | .hbm, ⟨70, _⟩ => ⟨S1x1x1024x2, .f32⟩
  | .hbm, ⟨71, _⟩ => ⟨S64x512x1024x2, .f32⟩
  | .hbm, ⟨72, _⟩ => ⟨S64x512x1024x2, .f32⟩
  | .hbm, ⟨73, _⟩ => ⟨S64x512x1024x2, .f32⟩
  | .hbm, ⟨74, _⟩ => ⟨S64x512x1024x2, .f32⟩
  | .hbm, ⟨75, _⟩ => ⟨S_, .f32⟩
  | .hbm, ⟨76, _⟩ => ⟨S64x512x1024, .f32⟩
  | .hbm, ⟨77, _⟩ => ⟨S_, .f32⟩
  | .hbm, ⟨78, _⟩ => ⟨S64x512, .f32⟩
  | .hbm, ⟨79, _⟩ => ⟨S64x511, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S_, .f32⟩
  | .hbm, ⟨86, _⟩ => ⟨S_, .f32⟩
  | _, _ => ⟨S64x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call3_v0 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  slices_S1024x2_S1x2_0_0 : S1024x2.Slices ![0, 0] S1x2
  shapeCasts_S1x2_S2 : S1x2.ShapeCasts S2
  reducesTo_S2_S_d0 : S2.ReducesTo [0] S_
  h_S_ : 0 < S_.numel
  slices_S1024x2_S1023x2_1_0 : S1024x2.Slices ![1, 0] S1023x2
  slices_S1024x2_S1023x2_0_0 : S1024x2.Slices ![0, 0] S1023x2
  reducesTo_S1023x2_S1023_d1 : S1023x2.ReducesTo [1] S1023
  reducesTo_S1023_S_d0 : S1023.ReducesTo [0] S_
  bcast_S_S1024 : S_.BroadcastsInDim S1024 (![] : Fin 0 → Fin S1024.rank)
  bcast_S1024_S1024x1_0 : S1024.BroadcastsInDim S1024x1 (![0] : Fin 1 → Fin S1024x1.rank)
  bcast_S2_S1x2_1 : S2.BroadcastsInDim S1x2 (![1] : Fin 1 → Fin S1x2.rank)
  bcast_S1024x1_S1024x2_0_1 : S1024x1.BroadcastsInDim S1024x2 (![0, 1] : Fin 2 → Fin S1024x2.rank)
  bcast_S1x2_S1024x2_0_1 : S1x2.BroadcastsInDim S1024x2 (![0, 1] : Fin 2 → Fin S1024x2.rank)
  bcast_S_S1024x2 : S_.BroadcastsInDim S1024x2 (![] : Fin 0 → Fin S1024x2.rank)
  slices_S64x512x4_S64x512x2_0_0_0 : S64x512x4.Slices ![0, 0, 0] S64x512x2
  bcast_S64x512x2_S64x512x1x2_0_1_3 : S64x512x2.BroadcastsInDim S64x512x1x2 (![0, 1, 3] : Fin 3 → Fin S64x512x1x2.rank)
  bcast_S1024x2_S1x1x1024x2_2_3 : S1024x2.BroadcastsInDim S1x1x1024x2 (![2, 3] : Fin 2 → Fin S1x1x1024x2.rank)
  bcast_S64x512x1x2_S64x512x1024x2_0_1_2_3 : S64x512x1x2.BroadcastsInDim S64x512x1024x2 (![0, 1, 2, 3] : Fin 4 → Fin S64x512x1024x2.rank)
  bcast_S1x1x1024x2_S64x512x1024x2_0_1_2_3 : S1x1x1024x2.BroadcastsInDim S64x512x1024x2 (![0, 1, 2, 3] : Fin 4 → Fin S64x512x1024x2.rank)
  reducesTo_S64x512x1024x2_S64x512x1024_d3 : S64x512x1024x2.ReducesTo [3] S64x512x1024
  reducesTo_S64x512x1024_S64x512_d2 : S64x512x1024.ReducesTo [2] S64x512
  slices_S64x512_S64x511_0_1 : S64x512.Slices ![0, 1] S64x511
  reducesTo_S64x511_S64_d1 : S64x511.ReducesTo [1] S64
  bcast_S_S64 : S_.BroadcastsInDim S64 (![] : Fin 0 → Fin S64.rank)
  reducesTo_S64_S_d0 : S64.ReducesTo [0] S_
  gather_S1024x2_S1024x1_S1024x2_1_0_n_n_0_1_12_wf : GatherDims.WF S1024x2 S1024x1 S1024x2 [1] [0] [] [0] [] 1 ![1, 2]

variable [Facts₀]

def gather_S1024x2_S1024x1_S1024x2_1_0_n_n_0_1_12 : GatherDims S1024x2 S1024x1 S1024x2 where
  offsetDims := [1]
  collapsedSliceDims := [0]
  operandBatchingDims := []
  startIndicesBatchingDims := []
  startIndexMap := [0]
  indexVectorDim := 1
  sliceSizes := ![1, 2]
  wf := gather_S1024x2_S1024x1_S1024x2_1_0_n_n_0_1_12_wf

class Facts : Prop extends Facts₀ where

variable [Facts]
-- ==== Proof.BlockPieces.lean ====
/-
  What the kernel's body leaves in the output window's staging buffer at one grid point.

  The body runs a counted loop of eight trips. Trip k loads rows 512·k … 512·k+511 of the point's
  input block, computes one value per row from that chunk and the two resident operands, and stores
  the 512 results into rows 512·k … 512·k+511 of the output block. So the run's stores are eight
  pieces, one per trip, each a rectangle of 512 rows carrying the chunk's payload.

  This module reads those pieces: trip k contributes exactly one piece (its rectangle and payload
  are stated once, below); by induction over the trips every piece of the loop agrees with any
  function G of the block index with which each trip's payload agrees on the trip's rectangle; and
  since the pieces cover the block, the block the body leaves is G.
-/
import proofs.«181681_j43971875176871_2_alg».proof.Proof.Gen.KernelIdeal.Frame
import Idealize.ShloMosaic.Lib.Pipeline.Value

set_option maxRecDepth 16384

noncomputable section

namespace Cert.KernelIdeal.BlockPieces

open Cert.KernelIdeal Cert.KernelIdeal.Gen
open Idealize.ShloMosaic Idealize.ShloMosaic.TcCoe Idealize.SL.Sem

variable {F : FTy → Type} [FloatOps F]

/-- Trip k of the loop makes one store: into rows 512·k … of the output block, the payload of the
    chunk of the input block loaded at rows 512·k …. -/
theorem trip_piece (𝒱 : Variants) (c : Dev nD) (bd : Option 𝒱.V) (i : grid0.Coords)
    (arg1 : Memref sig .tc .vmem S4096x2 .f32) (harg1 : arg1.IsWhole) (arg2 : Memref sig .tc .vmem S2x1024 .f32) (harg2 : arg2.IsWhole)
    (arg3 : Memref sig .tc .vmem S1x1024 .f32) (harg3 : arg3.IsWhole) (arg4 : Memref sig .tc .vmem S4096x1 .f32) (harg4 : arg4.IsWhole)
    (v0 : Vec F S2x1024 .f32) (v2 : Vec F S1x1024 .f32) (X : BufTy.Contents (Elt F) arg1.view.ty) (k : Fin k0_t1_loop.trips) :
    tripL_k0_t1 (F := F) 𝒱 c bd i arg1 harg1 arg2 harg2 arg3 harg3 arg4 harg4 v0 v2 X k
      = [⟨Rect.unit (s := S4096x1) (k0_off2 k) S512x1.size (k0_off2_inb k),
          k0_pay1 v0 v2 (View.readAt (Elt F) arg1.view (Rect.unit (s := S4096x2) (k0_off1 k) S512x2.size (k0_off1_inb k)).toLoadRect X)⟩] := by
  unfold tripL_k0_t1 trip_k0_t1
  rfl

/-- Every piece of the trips before n agrees with G, when each trip's payload agrees with G on the
    trip's rectangle. -/
theorem pieces_agree (𝒱 : Variants) (c : Dev nD) (bd : Option 𝒱.V) (i : grid0.Coords)
    (arg1 : Memref sig .tc .vmem S4096x2 .f32) (harg1 : arg1.IsWhole) (arg2 : Memref sig .tc .vmem S2x1024 .f32) (harg2 : arg2.IsWhole)
    (arg3 : Memref sig .tc .vmem S1x1024 .f32) (harg3 : arg3.IsWhole) (arg4 : Memref sig .tc .vmem S4096x1 .f32) (harg4 : arg4.IsWhole)
    (v0 : Vec F S2x1024 .f32) (v2 : Vec F S1x1024 .f32) (X : BufTy.Contents (Elt F) arg1.view.ty)
    (G : S4096x1.Idx → Elt F .f32)
    (hG : ∀ (k : Fin k0_t1_loop.trips) (x : (Rect.unit (s := S4096x1) (k0_off2 k) S512x1.size (k0_off2_inb k)).shape.Idx),
      k0_pay1 v0 v2 (View.readAt (Elt F) arg1.view (Rect.unit (s := S4096x2) (k0_off1 k) S512x2.size (k0_off1_inb k)).toLoadRect X) x
        = G ((Rect.unit (s := S4096x1) (k0_off2 k) S512x1.size (k0_off2_inb k)).emb x)) :
    ∀ (n : ℕ) (p : View.Piece (Elt F) S4096x1 .f32),
      p ∈ pb_k0_t1 (F := F) 𝒱 c bd i arg1 harg1 arg2 harg2 arg3 harg3 arg4 harg4 v0 v2 X n →
      ∀ x : p.1.shape.Idx, p.2 x = G (p.1.emb x) := by
  intro n
  induction n with
  | zero =>
    intro p hp
    rw [pb_k0_t1.eq_1] at hp
    exact absurd hp List.not_mem_nil
  | succ n ih =>
    intro p hp x
    rw [pb_k0_t1.eq_2] at hp
    unfold pb_k0_t1Step at hp
    split at hp
    · rename_i h
      rcases List.mem_append.mp hp with hp | hp
      · rw [trip_piece] at hp
        obtain rfl := List.mem_singleton.mp hp
        exact hG ⟨n, h⟩ x
      · exact ih p hp x
    · exact ih p hp x

/-- The run's list of stores is the loop's pieces over all its trips, the three input blocks read
    whole. -/
theorem run_pieces (c : Dev nD) (i : grid0.Coords)
    (arg1 : Memref sig .tc .vmem S4096x2 .f32) (harg1 : arg1.IsWhole) (arg2 : Memref sig .tc .vmem S2x1024 .f32) (harg2 : arg2.IsWhole)
    (arg3 : Memref sig .tc .vmem S1x1024 .f32) (harg3 : arg3.IsWhole) (arg4 : Memref sig .tc .vmem S4096x1 .f32) (harg4 : arg4.IsWhole)
    (x0 : Vec F S4096x2 .f32) (x1 : Vec F S2x1024 .f32) (x2 : Vec F S1x1024 .f32) :
    (kernelRun0_A (F := F) c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S2x1024) ![0, 0] S2x1024.size inb_S2x1024_S2x1024_0_0).toLoadRect (harg2.unread x1))
          (View.readAt (Elt F) arg3.view (Rect.unit (s := S1x1024) ![0, 0] S1x1024.size inb_S1x1024_S1x1024_0_0).toLoadRect (harg3.unread x2))
          (harg1.unread x0) k0_t1_loop.trips := by
  unfold kernelRun0_A
  rfl

/-- The block the body leaves is G, for any G that each chunk's payload agrees with on the chunk's
    rows: x₁ and x₂ are the resident operands as loaded, the chunk is the point's input block read
    through the trip's rectangle. -/
theorem out_block_eq (c : Dev nD) (i : grid0.Coords)
    (arg1 : Memref sig .tc .vmem S4096x2 .f32) (harg1 : arg1.IsWhole) (arg2 : Memref sig .tc .vmem S2x1024 .f32) (harg2 : arg2.IsWhole)
    (arg3 : Memref sig .tc .vmem S1x1024 .f32) (harg3 : arg3.IsWhole) (arg4 : Memref sig .tc .vmem S4096x1 .f32) (harg4 : arg4.IsWhole)
    (x0 : Vec F S4096x2 .f32) (x1 : Vec F S2x1024 .f32) (x2 : Vec F S1x1024 .f32)
    (G : S4096x1.Idx → Elt F .f32)
    (hG : ∀ (k : Fin k0_t1_loop.trips) (x : (Rect.unit (s := S4096x1) (k0_off2 k) S512x1.size (k0_off2_inb k)).shape.Idx),
      k0_pay1 x1 x2 (View.ld x0 (Rect.unit (s := S4096x2) (k0_off1 k) S512x2.size (k0_off1_inb k))) x
        = G ((Rect.unit (s := S4096x1) (k0_off2 k) S512x1.size (k0_off2_inb k)).emb x)) :
    out0_A_3 (F := F) c i arg1 harg1 arg2 harg2 arg3 harg3 arg4 harg4 x0 x1 x2 = G := by
  unfold out0_A_3
  funext y
  have hcov := cover0_A_3 (F := F) c i arg1 harg1 arg2 harg2 arg3 harg3 arg4 harg4 x0 x1 x2 y
  rw [View.read_writes_apply_eq_canon _ _ y _ hcov]
  refine View.canon_apply_of_pieces G _ ?_ y hcov
  rw [run_pieces]
  refine pieces_agree Variants.none c none i arg1 harg1 arg2 harg2 arg3 harg3 arg4 harg4 _ _ _ G ?_ _
  intro k x
  have e1 : View.readAt (Elt F) arg2.view (Rect.unit (s := S2x1024) ![0, 0] S2x1024.size inb_S2x1024_S2x1024_0_0).toLoadRect (harg2.unread x1) = x1 := by
    rw [View.readAt_eq_ld, harg2.read_unread]
    exact View.ld_unit_zero (S := S2x1024) (funext fun a => by fin_cases a <;> rfl) inb_S2x1024_S2x1024_0_0 x1
  have e2 : View.readAt (Elt F) arg3.view (Rect.unit (s := S1x1024) ![0, 0] S1x1024.size inb_S1x1024_S1x1024_0_0).toLoadRect (harg3.unread x2) = x2 := by
    rw [View.readAt_eq_ld, harg3.read_unread]
    exact View.ld_unit_zero (S := S1x1024) (funext fun a => by fin_cases a <;> rfl) inb_S1x1024_S1x1024_0_0 x2
  rw [e1, e2, View.readAt_eq_ld, harg1.read_unread]
  exact hG k x

end Cert.KernelIdeal.BlockPieces

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.RowValue.lean ====
/-
  One row of the kernel's output, at the ideal values.

  For a chunk of 512 query rows (a₀, a₁), the resident operand w (2 × 1024) and the resident row q
  (1 × 1024), the body's payload at row p is
      (a₀² + a₁²) + min over m of ((a₀·w(0,m) + a₁·w(1,m)) + q(0,m)),
  the minimum taken from +∞: a lane sum of the squares, a 512×2 by 2×1024 product into zero, the
  row q added to every row of it, and a lane minimum.
-/
import proofs.«181681_j43971875176871_2_alg».proof.Proof.Gen.KernelIdeal.Skeleton
import proofs.«181681_j43971875176871_2_alg».proof.Proof.LibPlainDot
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen
open Idealize.ShloMosaic Idealize.ShloMosaic.ValueIdx

/-- The value of one output row: the query's squared norm plus the least, over the 1024 columns, of
    the cross term plus the column's entry of q. -/
def rowVal (a0 a1 : EReal) (w : (⟨2, ![2, 1024]⟩ : Shape).Idx → EReal) (q : (⟨2, ![1, 1024]⟩ : Shape).Idx → EReal) : EReal :=
  (a0 * a0 + a1 * a1)
    + (Finset.univ : Finset (Fin 1024)).fold min ⊤ (fun m => (a0 * w (ix2 0 m) + a1 * w (ix2 1 m)) + q (ix2 0 m))

/-- The pattern of +∞. -/
theorem ofBits_inf : Ideal.ofBits .f32 0x7F800000#32 = ⊤ := by
  simp [Ideal.ofBits, Ideal.ieee]

/-- A lane sum over the two columns of a 512 × 2 vector, at row p. -/
theorem lane_sum2 (src : FVec Ideal S512x2 .f32) (p : Fin 512) :
    multiReduction .add [1] S512 src 0x00000000#32 reduces_S512x2_S512 (.inl rfl) rfl (ix1 p)
      = src (ix2 p 0) + src (ix2 p 1) := by
  refine (Ideal.multiReduction_add_single src 0x00000000#32 reduces_S512x2_S512 (.inl rfl) rfl (ix1 p)).trans ?_
  show ∑ k : Fin 2, src (reduces_S512x2_S512.lift (ix1 p) k) = _
  rw [Fin.sum_univ_two]
  have e0 : reduces_S512x2_S512.lift (ix1 p) (0 : Fin 2) = ix2 p 0 :=
    funext fun a => Fin.ext (by match a with | ⟨0, _⟩ => rfl | ⟨1, _⟩ => rfl)
  have e1 : reduces_S512x2_S512.lift (ix1 p) (1 : Fin 2) = ix2 p 1 :=
    funext fun a => Fin.ext (by match a with | ⟨0, _⟩ => rfl | ⟨1, _⟩ => rfl)
  rw [e0, e1]

/-- A lane minimum over the 1024 columns of a 512 × 1024 vector, at row p, from +∞. -/
theorem lane_min (src : FVec Ideal S512x1024 .f32) (p : Fin 512) :
    multiReduction .minimumf [1] S512 src 0x7F800000#32 reduces_S512x1024_S512 (.inl rfl) rfl (ix1 p)
      = (Finset.univ : Finset (Fin 1024)).fold min ⊤ (fun m => src (ix2 p m)) := by
  refine (multiReduction_minimumf_eq_fold src 0x7F800000#32 reduces_S512x1024_S512 (.inl rfl) rfl (ix1 p)).trans ?_
  refine (reduces_S512x1024_S512.fold_filter_drop_single _ _ src (ix1 p)).trans ?_
  have el : (src ∘ reduces_S512x1024_S512.lift (ix1 p)) = fun m : Fin 1024 => src (ix2 p m) :=
    funext fun m => congrArg src (funext fun a => Fin.ext (by match a with | ⟨0, _⟩ => rfl | ⟨1, _⟩ => rfl))
  rw [el]
  show Finset.fold min (Ideal.ofBits .f32 0x7F800000#32) (fun m : Fin 1024 => src (ix2 p m)) Finset.univ = _
  rw [ofBits_inf]

/-- The row q broadcast down the 512 rows, at (p, m). -/
theorem bcast_row (q : FVec Ideal S1x1024 .f32) (p : Fin 512) (m : Fin 1024) :
    broadcastTo S512x1024 q broadcasts_S1x1024_S512x1024 (ix2 p m) = q (ix2 0 m) :=
  broadcastTo_apply q broadcasts_S1x1024_S512x1024 (ix2 p m) (ix2 0 m) (fun a => by
    match a with
    | ⟨0, _⟩ => rfl
    | ⟨1, _⟩ => rfl)

/-- A 512-vector recast as a 512 × 1 column, at (p, 0). -/
theorem column_cast (v : FVec Ideal S512 .f32) (p : Fin 512) (z : Fin 1) :
    shapeCast S512x1 v shapeCasts_S512_S512x1 (ix2 p z) = v (ix1 p) :=
  shapeCast_apply v shapeCasts_S512_S512x1 (ix2 p z) (ix1 p) (by
    rw [Shape.rowMajor_val_two, Shape.rowMajor_val_one]
    have hz : z.val = 0 := by omega
    show p.val = p.val * 1 + z.val
    omega)

/-- The printed dimension numbers of the body's product are those of a plain 512×2 by 2×1024 product. -/
theorem dot_plain : dot_S512x2_S2x1024_S512x1024_1_0_0_1_n_n = DotDims.plain 512 2 1024 := rfl

/-- The body's payload at row p: `rowVal` of the chunk's row and the two resident operands. -/
theorem pay_apply (v0 : Vec Ideal S2x1024 .f32) (v2 : Vec Ideal S1x1024 .f32) (v10 : Vec Ideal S512x2 .f32) (p : Fin 512) (z : Fin 1) :
    k0_pay1 (F := Ideal) v0 v2 v10 (ix2 p z) = rowVal (v10 (ix2 p 0)) (v10 (ix2 p 1)) v0 v2 := by
  unfold k0_pay1
  dsimp only
  rw [shapeCast_self, shapeCast_self, shapeCast_self]
  unfold rowVal
  rw [addf_apply, column_cast, column_cast]
  refine congrArg₂ (· + ·) ?_ ?_
  · exact lane_sum2 (mulf v10 v10) p
  · refine (lane_min _ p).trans ?_
    refine congrArg (fun f => Finset.fold min ⊤ f (Finset.univ : Finset (Fin 1024))) (funext fun m => ?_)
    rw [addf_apply, bcast_row]
    refine congrArg (· + v2 (ix2 0 m)) ?_
    show FloatOps.matmul (F := Ideal) (φ₁ := .f32) (φ₂ := .f32) dot_S512x2_S2x1024_S512x1024_1_0_0_1_n_n
        (some ContractPrecision.fp32) v10 v0 (constant S512x1024 .f32 0x00000000#32) (ix2 p m) = _
    rw [dot_plain]
    refine (Idealize.ShloMosaic.PlainDot.matmul_zero_apply (φ₁ := .f32) (φ₂ := .f32) (some ContractPrecision.fp32)
      v10 v0 p m).trans ?_
    rw [Fin.sum_univ_two]

end Cert.KernelIdeal.RowValue

end
-- ==== Proof.OutArray.lean ====
/-
  The kernel's output array after the region, as one function of the three arrays it reads.

  Grid point t works on rows 4096·t … 4096·t+4095: its input block is those rows of the 32768 × 2
  query array, the two other operands are resident whole, and its output block is those rows of the
  32768 × 1 result. Row r of a block depends only on row r of the input block, so the eight blocks are
  the restrictions of one function of the whole arrays: row r of the result is `rowVal` of row r of
  the query array and the two resident operands. The eight blocks tile the result.
-/
import proofs.«181681_j43971875176871_2_alg».proof.Proof.BlockPieces
import proofs.«181681_j43971875176871_2_alg».proof.Proof.RowValue

set_option maxRecDepth 16384

noncomputable section

namespace Cert.KernelIdeal.OutArray

open Cert.KernelIdeal Cert.KernelIdeal.Gen Cert.KernelIdeal.RowValue
open Idealize.ShloMosaic Idealize.ShloMosaic.TcCoe Idealize.ShloMosaic.ValueIdx Idealize.SL.Sem
open Idealize.ShloMosaic.Pipeline (Dat)

/-- One output block from the point's three input blocks: row r is `rowVal` of row r of the chunk. -/
def blockFn (x0 : Vec Ideal S4096x2 .f32) (x1 : Vec Ideal S2x1024 .f32) (x2 : Vec Ideal S1x1024 .f32) :
    S4096x1.Idx → EReal :=
  fun y => rowVal (x0 (ix2 (n0 := 4096) (n1 := 2) (y 0) 0)) (x0 (ix2 (n0 := 4096) (n1 := 2) (y 0) 1)) x1 x2

/-- The whole result from the three arrays: row r is `rowVal` of row r of the query array. -/
def outArr (xy : S32768x2.Idx → EReal) (w : S2x1024.Idx → EReal) (q : S1x1024.Idx → EReal) :
    S32768x1.Idx → EReal :=
  fun r => rowVal (xy (ix2 (n0 := 32768) (n1 := 2) (r 0) 0)) (xy (ix2 (n0 := 32768) (n1 := 2) (r 0) 1)) w q

/-- What the body leaves in the output block, on any staging memrefs and for any input blocks. -/
theorem block_eq (c : Dev nD) (i : grid0.Coords)
    (arg1 : Memref sig .tc .vmem S4096x2 .f32) (harg1 : arg1.IsWhole) (arg2 : Memref sig .tc .vmem S2x1024 .f32) (harg2 : arg2.IsWhole)
    (arg3 : Memref sig .tc .vmem S1x1024 .f32) (harg3 : arg3.IsWhole) (arg4 : Memref sig .tc .vmem S4096x1 .f32) (harg4 : arg4.IsWhole)
    (x0 : Vec Ideal S4096x2 .f32) (x1 : Vec Ideal S2x1024 .f32) (x2 : Vec Ideal S1x1024 .f32) :
    out0_A_3 (F := Ideal) c i arg1 harg1 arg2 harg2 arg3 harg3 arg4 harg4 x0 x1 x2 = blockFn x0 x1 x2 := by
  refine BlockPieces.out_block_eq (F := Ideal) c i arg1 harg1 arg2 harg2 arg3 harg3 arg4 harg4 x0 x1 x2 (blockFn x0 x1 x2) ?_
  intro k x
  obtain ⟨p, z, rfl⟩ : ∃ (p : Fin 512) (z : Fin 1), x = ix2 p z := ⟨x 0, x 1, eq_ix2 x⟩
  refine (pay_apply x1 x2 (View.ld x0 (Rect.unit (s := S4096x2) (k0_off1 k) S512x2.size (k0_off1_inb k))) p z).trans ?_
  unfold blockFn
  refine congrArg₂ (fun a b => rowVal a b x1 x2) ?_ ?_
  · show x0 ((Rect.unit (s := S4096x2) (k0_off1 k) S512x2.size (k0_off1_inb k)).idx (ix2 p 0)) = _
    refine congrArg x0 (funext fun a => Fin.ext ?_)
    match a with
    | ⟨0, _⟩ => rfl
    | ⟨1, _⟩ => rfl
  · show x0 ((Rect.unit (s := S4096x2) (k0_off1 k) S512x2.size (k0_off1_inb k)).idx (ix2 p 1)) = _
    refine congrArg x0 (funext fun a => Fin.ext ?_)
    match a with
    | ⟨0, _⟩ => rfl
    | ⟨1, _⟩ => rfl

/-- The printed index maps over the grid: the query window moves with the output window down the
    rows, the two resident windows stay at the origin, and the output's block index is the point. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block of rows is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- Block t of `outArr` of three arrays is `blockFn` of their blocks at point t (the arrays are
    variables here: nothing about how the program computed them is used). -/
theorem cut_blockFn (t : Fin cfg0.N) (A0 : S32768x2.Idx → EReal) (A1 : S2x1024.Idx → EReal) (A2 : S1x1024.Idx → EReal) :
    (cfg0.win 3).cut (grid0.coords t)
        (blockFn (((cfg0.win 0).blk t).view.read (Elt Ideal) A0) (((cfg0.win 1).blk t).view.read (Elt Ideal) A1)
          (((cfg0.win 2).blk t).view.read (Elt Ideal) A2))
      = ((cfg0.win 3).blk t).view.read (Elt Ideal) (outArr A0 A1 A2) := by
  obtain ⟨e0, e1, e2, e3, e4, e5, e6, e7⟩ := idx_facts t
  funext j
  show rowVal (A0 (((cfg0.win 0).blk t).view.emb (ix2 (n0 := 4096) (n1 := 2) (j 0) 0)))
        (A0 (((cfg0.win 0).blk t).view.emb (ix2 (n0 := 4096) (n1 := 2) (j 0) 1)))
        (fun y => A1 (((cfg0.win 1).blk t).view.emb y))
        (fun y => A2 (((cfg0.win 2).blk t).view.emb y))
    = rowVal (A0 (ix2 (n0 := 32768) (n1 := 2) ((((cfg0.win 3).blk t).view.emb j) 0) 0))
        (A0 (ix2 (n0 := 32768) (n1 := 2) ((((cfg0.win 3).blk t).view.emb j) 0) 1))
        A1 A2
  have h1 : ∀ y, ((cfg0.win 1).blk t).view.emb y = y := fun y => funext fun a => Fin.ext (by
    match a with
    | ⟨0, _⟩ => show win0_1.index t (0 : Fin 2) * 2 + 1 * (y 0).val = (y 0).val; omega
    | ⟨1, _⟩ => show win0_1.index t (1 : Fin 2) * 1024 + 1 * (y 1).val = (y 1).val; omega)
  have h2 : ∀ y, ((cfg0.win 2).blk t).view.emb y = y := fun y => funext fun a => Fin.ext (by
    match a with
    | ⟨0, _⟩ => show win0_2.index t (0 : Fin 2) * 1 + 1 * (y 0).val = (y 0).val; omega
    | ⟨1, _⟩ => show win0_2.index t (1 : Fin 2) * 1024 + 1 * (y 1).val = (y 1).val; omega)
  have h00 : ((cfg0.win 0).blk t).view.emb (ix2 (n0 := 4096) (n1 := 2) (j 0) 0)
      = ix2 (n0 := 32768) (n1 := 2) ((((cfg0.win 3).blk t).view.emb j) 0) 0 := funext fun a => Fin.ext (by
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 2 + 1 * 0 = 0; omega)
  have h01 : ((cfg0.win 0).blk t).view.emb (ix2 (n0 := 4096) (n1 := 2) (j 0) 1)
      = ix2 (n0 := 32768) (n1 := 2) ((((cfg0.win 3).blk t).view.emb j) 0) 1 := funext fun a => Fin.ext (by
    match a with
    | ⟨0, _⟩ => show win0_0.index t (0 : Fin 2) * 4096 + 1 * (j 0).val = win0_3.index t (0 : Fin 2) * 4096 + 1 * (j 0).val; omega
    | ⟨1, _⟩ => show win0_0.index t (1 : Fin 2) * 2 + 1 * 1 = 1; omega)
  rw [h00, h01]
  simp only [h1, h2]

variable (m : (ℓ : Loc nD τ sig) → Buf (Elt Ideal) ℓ)

/-- What point t writes back is block t of `outArr` of the three arrays as the region finds them. -/
theorem flushed_eq (c : Dev nD) (t : Fin cfg0.N) :
    (dats m 0 c).flushed 3 t
      = ((cfg0.win 3).blk t).view.read (Elt Ideal)
          (outArr (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold outsAt0
  rw [block_eq c (grid0.coords t) (ms0_0 t) (hs0_0 t) (ms0_1 t) (hs0_1 t) (ms0_2 t) (hs0_2 t) (ms0_3 t) (hs0_3 t)
    (iblk m c 0 t) (iblk m c 1 t) (iblk m c 2 t)]
  unfold iblk
  generalize V m c (Pipeline.arrRef spec0 0) = A0
  generalize V m c (Pipeline.arrRef spec0 1) = A1
  generalize V m c (Pipeline.arrRef spec0 2) = A2
  exact cut_blockFn t A0 A1 A2

/-- A row of the result is in point t's block iff it lies in the block's range on each axis. -/
theorem mem_blk (t : Fin cfg0.N) (i : S32768x1.Idx) :
    i ∈ ((cfg0.win 3).blk t).view.set ↔ ∀ a : Fin 2, win0_3.index t a * S4096x1.size a ≤ (i a).val
      ∧ (i a).val < win0_3.index t a * S4096x1.size a + S4096x1.size a := by
  show i ∈ ((View.whole main_v61).slice (win0_3.rect t)).set ↔ _
  rw [View.set_slice_whole, Rect.mem_set_unit]
  exact Iff.rfl

/-- The blocks tile the result: row r is in the block of point r / 4096. -/
theorem cover (i : S32768x1.Idx) :
    ∃ t : Fin cfg0.N, (cfg0.win 3).flush t = true ∧ i ∈ ((cfg0.win 3).blk t).view.set := by
  have hi0 : (i 0).val < 32768 := (i 0).isLt
  have hi1 : (i 1).val < 1 := (i 1).isLt
  obtain ⟨t, ht⟩ := idx_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 1 ≤ (i 1).val ∧ (i 1).val < win0_3.index t (1 : Fin 2) * 1 + 1; omega

/-- The result array after the region. -/
theorem final (c : Dev nD) :
    (dats m 0 c).arrAt 3 cfg0.N
      = outArr (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.OutArray

end
-- ==== Proof.HostValue.lean ====
/-
  The host operations of the kernel's program around the region.

  Before the region the program computes, from the second argument, the augmented target array (the
  operations up to the second `where`), and from it and the first argument the three arrays the
  region reads: the query rows (the first two channels of the first argument, the leading two axes
  flattened), the 2 × 1024 operand whose rows are -2 times the target's two columns, and the
  1 × 1024 row of the target points' squared norms. This module reads those three arrays as terms of
  the first argument and of the augmented target, which stays one opaque array here.
-/
import proofs.«181681_j43971875176871_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- Running one list of host operations after another is running their concatenation. -/
theorem after_append {τ : Topo} {sig : RefSig} {Val : EltTy → Type} :
    ∀ (l1 l2 : List (HloOp τ sig Val)) (V : Valuation τ sig Val),
      StableHlo.after (l1 ++ l2) V = StableHlo.after l2 (StableHlo.after l1 V)
  | [], _, _ => rfl
  | op :: l1, l2, V => by
    rw [List.cons_append, StableHlo.after_cons, StableHlo.after_cons]
    exact after_append l1 l2 _

variable (m : (ℓ : Loc nD τ sig) → Buf (Elt Ideal) ℓ)

/-- The buffers' contents once the augmented target has been computed (every host operation up to
    the second `where`). -/
def Vmid (c : Dev nD) : Valuation τ sig (Elt Ideal) :=
  StableHlo.after (List.flatten [hostOps0, hostOps0_1, hostOps0_2, hostOps0_3, hostOps0_4, hostOps0_5, hostOps0_6, hostOps0_7, hostOps0_8, hostOps0_9])
    (fun b => m (c, b))

/-- The contents at the region's entry are the last stretch of host operations run from there. -/
theorem V0_eq (c : Dev nD) : V0 m c = StableHlo.after hostOps0_10 (Vmid m c) := by
  unfold Vmid
  rw [← after_append]
  show StableHlo.after _ _ = StableHlo.after _ _
  congr 1

/-! ## The three arrays the region reads, as terms -/

/-- The query rows: the first two channels of the first argument, its two leading axes flattened. -/
def rowsTerm (a0 : S64x512x4.Idx → EReal) : S32768x2.Idx → EReal :=
  shapeCast S32768x2 (extractStridedSlice S64x512x2 ![0, 0, 0] a0 slices_S64x512x4_S64x512x2_0_0_0) shapeCasts_S64x512x2_S32768x2

/-- Column 0 of the target. -/
def col0 (t : S1024x2.Idx → EReal) : FVec Ideal S1024 .f32 :=
  shapeCast S1024 (extractStridedSlice S1024x1 ![0, 0] t slices_S1024x2_S1024x1_0_0) shapeCasts_S1024x1_S1024

/-- Column 1 of the target. -/
def col1 (t : S1024x2.Idx → EReal) : FVec Ideal S1024 .f32 :=
  shapeCast S1024 (extractStridedSlice S1024x1 ![0, 1] t slices_S1024x2_S1024x1_0_1) shapeCasts_S1024x1_S1024

/-- The 2 × 1024 operand: row k is -2 times column k of the target. -/
def crossTerm (t : S1024x2.Idx → EReal) : S2x1024.Idx → EReal :=
  concatenate S2x1024 0
    [⟨S1x1024, broadcastInDim S1x1024 ![1] bcast_S1024_S1x1024_1
        (mulf (broadcastInDim S1024 ![] bcast_S_S1024 (constant (F := Ideal) S_ .f32 0xC0000000#32)) (col0 t))⟩,
     ⟨S1x1024, broadcastInDim S1x1024 ![1] bcast_S1024_S1x1024_1
        (mulf (broadcastInDim S1024 ![] bcast_S_S1024 (constant (F := Ideal) S_ .f32 0xC0000000#32)) (col1 t))⟩]
    concatenates_S1x1024_S1x1024_S2x1024_d0

/-- The 1 × 1024 row of the target points' squared norms. -/
def normTerm (t : S1024x2.Idx → EReal) : S1x1024.Idx → EReal :=
  broadcastInDim S1x1024 ![1] bcast_S1024_S1x1024_1
    (addf (F := Ideal) (φ := .f32) (mulf (col0 t) (col0 t)) (mulf (col1 t) (col1 t)))

theorem rows_of (W : Valuation τ sig (Elt Ideal)) :
    (StableHlo.after hostOps0_10 W (Proc.devRef .tc main_v45) : S32768x2.Idx → EReal)
      = rowsTerm (W (Proc.devRef .tc main_arg0)) := by
  after_results
  rfl

theorem cross_of (W : Valuation τ sig (Elt Ideal)) :
    (StableHlo.after hostOps0_10 W (Proc.devRef .tc main_v60) : S2x1024.Idx → EReal)
      = crossTerm (W (Proc.devRef .tc main_v43)) := by
  after_results
  rfl

theorem norm_of (W : Valuation τ sig (Elt Ideal)) :
    (StableHlo.after hostOps0_10 W (Proc.devRef .tc main_v53) : S1x1024.Idx → EReal)
      = normTerm (W (Proc.devRef .tc main_v43)) := by
  after_results
  rfl

end Cert.KernelIdeal.HostValue

end
-- ==== Proof.HostIndex.lean ====
/-
  The three arrays the region reads, at an index.

  Row 512·b + n of the query rows is the point (x(b, n, 0), x(b, n, 1)) of the first argument; entry
  (k, j) of the 2 × 1024 operand is -2 times coordinate k of target point j; entry j of the 1 × 1024
  row is the squared norm of target point j.
-/
import proofs.«181681_j43971875176871_2_alg».proof.Proof.HostValue

noncomputable section

namespace Cert.KernelIdeal.HostValue

open Cert.KernelIdeal Cert.KernelIdeal.Gen
open Idealize.ShloMosaic Idealize.ShloMosaic.ValueIdx

/-- Column 0 of the target at j. -/
theorem col0_apply (t : S1024x2.Idx → EReal) (j : Fin 1024) : col0 t (ix1 j) = t (ix2 j 0) := by
  unfold col0
  refine (shapeCast_apply _ shapeCasts_S1024x1_S1024 (ix1 j) (ix2 j 0) ?_).trans ?_
  · rewrite [Shape.rowMajor_val_two, Shape.rowMajor_val_one]
    show j.val * 1 + 0 = j.val
    omega
  · exact extractStridedSlice_apply ![0, 0] t slices_S1024x2_S1024x1_0_0 (ix2 j 0) (ix2 j 0) (fun a => match a with
      | ⟨0, _⟩ => by show j.val = 0 + j.val; omega
      | ⟨1, _⟩ => by show (0 : ℕ) = 0 + 0; omega)

/-- Column 1 of the target at j. -/
theorem col1_apply (t : S1024x2.Idx → EReal) (j : Fin 1024) : col1 t (ix1 j) = t (ix2 j 1) := by
  unfold col1
  refine (shapeCast_apply _ shapeCasts_S1024x1_S1024 (ix1 j) (ix2 j 0) ?_).trans ?_
  · rewrite [Shape.rowMajor_val_two, Shape.rowMajor_val_one]
    show j.val * 1 + 0 = j.val
    omega
  · exact extractStridedSlice_apply ![0, 1] t slices_S1024x2_S1024x1_0_1 (ix2 j 0) (ix2 j 1) (fun a => match a with
      | ⟨0, _⟩ => by show j.val = 0 + j.val; omega
      | ⟨1, _⟩ => by show (1 : ℕ) = 1 + 0; omega)

/-- A 1024-vector laid as a 1 × 1024 row, at (0, j). -/
theorem row_apply (v : S1024.Idx → EReal) (j : Fin 1024) :
    broadcastInDim S1x1024 ![1] bcast_S1024_S1x1024_1 v (ix2 0 j) = v (ix1 j) :=
  broadcastInDim_apply _ bcast_S1024_S1x1024_1 v (ix2 0 j) (ix1 j) (fun a => match a with
    | ⟨0, _⟩ => by show j.val = if (1024 : Nat) = 1 then 0 else j.val; rw [if_neg (by decide)])

/-- A scalar splat over 1024 entries, at j. -/
theorem splat_apply (s : S_.Idx → EReal) (j : Fin 1024) :
    broadcastInDim S1024 ![] bcast_S_S1024 s (ix1 j) = s ix0 :=
  broadcastInDim_apply _ bcast_S_S1024 s (ix1 j) ix0 (fun a => a.elim0)

/-- The squared norms' row at j. -/
theorem normTerm_apply (t : S1024x2.Idx → EReal) (j : Fin 1024) :
    normTerm t (ix2 0 j) = t (ix2 j 0) * t (ix2 j 0) + t (ix2 j 1) * t (ix2 j 1) := by
  unfold normTerm
  rw [row_apply]
  show col0 t (ix1 j) * col0 t (ix1 j) + col1 t (ix1 j) * col1 t (ix1 j) = _
  rw [col0_apply, col1_apply]

/-- Row 0 of the 2 × 1024 operand at j: -2 times coordinate 0 of target point j. -/
theorem crossTerm_apply0 (t : S1024x2.Idx → EReal) (j : Fin 1024) :
    crossTerm t (ix2 0 j) = Ideal.ofBits .f32 0xC0000000#32 * t (ix2 j 0) := by
  unfold crossTerm
  refine (concatenate_pair_apply_left (t := S2x1024) (s₁ := S1x1024) (s₂ := S1x1024) (0 : Fin 2) _ _
    concatenates_S1x1024_S1x1024_S2x1024_d0 (ix2 (n0 := 2) (n1 := 1024) 0 j) rfl (ix2 (n0 := 1) (n1 := 1024) 0 j)
    (fun b => match b with | ⟨0, _⟩ => rfl | ⟨1, _⟩ => rfl)).trans ?_
  rw [row_apply]
  show broadcastInDim S1024 ![] bcast_S_S1024 (constant (F := Ideal) S_ .f32 0xC0000000#32) (ix1 j) * col0 t (ix1 j) = _
  rw [splat_apply, col0_apply]
  rfl

/-- Row 1 of the 2 × 1024 operand at j: -2 times coordinate 1 of target point j. -/
theorem crossTerm_apply1 (t : S1024x2.Idx → EReal) (j : Fin 1024) :
    crossTerm t (ix2 1 j) = Ideal.ofBits .f32 0xC0000000#32 * t (ix2 j 1) := by
  unfold crossTerm
  refine (concatenate_pair_apply_right (t := S2x1024) (s₁ := S1x1024) (s₂ := S1x1024) (0 : Fin 2) _ _
    concatenates_S1x1024_S1x1024_S2x1024_d0 (ix2 (n0 := 2) (n1 := 1024) 1 j) rfl rfl (ix2 (n0 := 1) (n1 := 1024) 0 j)
    (fun b hb => match b, hb with
      | ⟨0, _⟩, hb => absurd rfl hb
      | ⟨1, _⟩, _ => rfl) rfl).trans ?_
  rw [row_apply]
  show broadcastInDim S1024 ![] bcast_S_S1024 (constant (F := Ideal) S_ .f32 0xC0000000#32) (ix1 j) * col1 t (ix1 j) = _
  rw [splat_apply, col1_apply]
  rfl

/-- Row 512·b + n of the query rows, channel k: the first argument at (b, n, k). -/
theorem rowsTerm_apply (a0 : S64x512x4.Idx → EReal) (b : Fin 64) (n : Fin 512) (k : Fin 2) :
    rowsTerm a0 (ix2 (⟨b.val * 512 + n.val, by omega⟩ : Fin 32768) k) = a0 (ix3 b n (⟨k.val, by omega⟩ : Fin 4)) := by
  unfold rowsTerm
  refine (shapeCast_apply _ shapeCasts_S64x512x2_S32768x2 (ix2 (⟨b.val * 512 + n.val, by omega⟩ : Fin 32768) k) (ix3 b n k) ?_).trans ?_
  · rewrite [Shape.rowMajor_val_two, Shape.rowMajor_val_three]
    show (b.val * 512 + n.val) * 2 + k.val = (b.val * 512 + n.val) * 2 + k.val
    rfl
  · exact extractStridedSlice_apply ![0, 0, 0] a0 slices_S64x512x4_S64x512x2_0_0_0 (ix3 b n k) (ix3 b n (⟨k.val, by omega⟩ : Fin 4)) (fun a => match a with
      | ⟨0, _⟩ => by show b.val = 0 + b.val; omega
      | ⟨1, _⟩ => by show n.val = 0 + n.val; omega
      | ⟨2, _⟩ => by show k.val = 0 + k.val; omega)

end Cert.KernelIdeal.HostValue

end
-- ==== Proof.AugmentedTarget.lean ====
/-
  The kernel's program and the reference build the same augmented target.

  The host operations the kernel's program runs before its last stretch are, one for one, the
  reference's first operations: the contents they leave at the augmented target's buffer are the
  reference's own term of the second argument, and they leave the first argument alone.
-/
import proofs.«181681_j43971875176871_2_alg».proof.Proof.HostValue
import proofs.«181681_j43971875176871_2_alg».proof.Proof.Gen.ReferenceIdeal.Read

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 40000000 in
/-- The augmented target as the kernel's program computes it is the reference's term. -/
theorem Vmid_target (c : Dev nD) :
    (Vmid m c (Proc.devRef .tc main_v43) : S1024x2.Idx → EReal)
      = Cert.ReferenceIdeal.Read.val_main_v43 (F := Ideal) (m ((c.tc : Thread nD τ).loc main_arg1)) := by
  unfold Vmid
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results_simp
  rfl

/-- No host operation before the last stretch writes the first argument. -/
theorem Vmid_arg0 (c : Dev nD) :
    Vmid m c (Proc.devRef .tc main_arg0) = m ((c.tc : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9,
      List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostValue

end
-- ==== Proof.NearestSq.lean ====
/-
  The arithmetic that joins the two programs, over the extended reals.

  For a query point (a₀, a₁) and a target point (b₀, b₁), all real,
    (a₀ - b₀)² + (a₁ - b₁)²  =  (a₀² + a₁²) + ((a₀·(-2·b₀) + a₁·(-2·b₁)) + (b₀² + b₁²)),
  and a constant that is not -∞ moves inside a minimum taken from +∞:
    c + min_m f m  =  min_m (c + f m).
  Together: the nearest squared distance is the query's squared norm plus the minimum over the
  targets of the cross term plus the target's squared norm.
-/
import Mathlib.Data.EReal.Operations
import Mathlib.Data.Finset.Fold
import Mathlib.Tactic.Ring

namespace NearestSq

/-- The squared distance of two real points of the plane, expanded. -/
theorem sq_dist_expand (a0 a1 b0 b1 : ℝ) :
    ((a0 : EReal) - b0) * ((a0 : EReal) - b0) + ((a1 : EReal) - b1) * ((a1 : EReal) - b1)
      = ((a0 : EReal) * a0 + (a1 : EReal) * a1)
        + (((a0 : EReal) * (((-2 : ℝ) : EReal) * b0) + (a1 : EReal) * (((-2 : ℝ) : EReal) * b1))
            + ((b0 : EReal) * b0 + (b1 : EReal) * b1)) := by
  simp only [← EReal.coe_sub, ← EReal.coe_mul, ← EReal.coe_add]
  congr 1
  ring

/-- Adding a constant other than -∞ commutes with a minimum over a finite family taken from +∞. -/
theorem add_fold_min {ι : Type*} (s : Finset ι) (c : EReal) (hc : c ≠ ⊥) (f : ι → EReal) :
    c + s.fold min ⊤ f = s.fold min ⊤ (fun m => c + f m) := by
  have h := Finset.fold_hom (op := (min : EReal → EReal → EReal)) (op' := min) (s := s) (b := ⊤) (f := f)
    (m := fun x => c + x) (fun x y => (min_add_add_left c x y).symm)
  rw [← h, EReal.add_top_of_ne_bot hc]

/-- A real plus anything but -∞ is not -∞. -/
theorem coe_add_coe_ne_bot (x y : ℝ) : (x : EReal) * x + (y : EReal) * y ≠ ⊥ := by
  rw [← EReal.coe_mul, ← EReal.coe_mul, ← EReal.coe_add]
  exact EReal.coe_ne_bot _

/-- The nearest squared distance from a real point to a finite family of real points: the minimum of
    the expanded form with the point's own squared norm taken out. -/
theorem nearest_expand {ι : Type*} (s : Finset ι) (a0 a1 : ℝ) (b0 b1 : ι → ℝ) :
    ((a0 : EReal) * a0 + (a1 : EReal) * a1)
        + s.fold min ⊤ (fun m => ((a0 : EReal) * (((-2 : ℝ) : EReal) * b0 m) + (a1 : EReal) * (((-2 : ℝ) : EReal) * b1 m))
            + ((b0 m : EReal) * b0 m + (b1 m : EReal) * b1 m))
      = s.fold min ⊤ (fun m => ((a0 : EReal) - b0 m) * ((a0 : EReal) - b0 m) + ((a1 : EReal) - b1 m) * ((a1 : EReal) - b1 m)) := by
  rw [add_fold_min s _ (coe_add_coe_ne_bot a0 a1)]
  congr 1
  funext m
  exact (sq_dist_expand a0 a1 (b0 m) (b1 m)).symm

end NearestSq
-- ==== Proof.RefValue.lean ====
/-
  The reference's nearest squared distance, at an index.

  At (b, n) the reference's minimum is, over the 1024 points of the augmented target T, the least of
  (x(b,n,0) - T(j,0))² + (x(b,n,1) - T(j,1))², the minimum taken from +∞ and each sum of two squares
  from 0. The augmented target stays the reference's own term of the second argument.
-/
import proofs.«181681_j43971875176871_2_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- The pattern of +∞. -/
theorem ofBits_inf : Ideal.ofBits .f32 0x7F800000#32 = ⊤ := by
  simp [Ideal.ofBits, Ideal.ieee]

/-- The shapes' reduction over the target axis, as the fact the single-axis reading asks for. -/
theorem reduces_targets : S64x512x1024.Reduces [2] S64x512 := by decide

/-- One squared difference of the reference at (b, n, j, k). -/
theorem sq_diff_apply (x0 : S64x512x4.Idx → EReal) (x1 : S1024x2.Idx → EReal) (b : Fin 64) (n : Fin 512) (j : Fin 1024) (k : Fin 2) :
    val_main_v50 (F := Ideal) x0 x1 (ix4 b n j k)
      = (x0 (ix3 b n (⟨k.val, by omega⟩ : Fin 4)) - val_main_v43 (F := Ideal) x1 (ix2 j k))
        * (x0 (ix3 b n (⟨k.val, by omega⟩ : Fin 4)) - val_main_v43 (F := Ideal) x1 (ix2 j k)) := by
  rw [val_main_v50_apply, val_main_v49_apply, val_main_v47_apply, val_main_v45_apply, val_main_v44_apply,
    val_main_v48_apply, val_main_v46_apply]
  have e0 : idx_main_v44 (idx_main_v45 (idx_main_v47 (ix4 b n j k))) = ix3 b n (⟨k.val, by omega⟩ : Fin 4) :=
    funext fun a => Fin.ext (by match a with | ⟨0, _⟩ => rfl | ⟨1, _⟩ => rfl | ⟨2, _⟩ => rfl)
  have e1 : idx_main_v46 (idx_main_v48 (ix4 b n j k)) = ix2 j k :=
    funext fun a => Fin.ext (by match a with | ⟨0, _⟩ => rfl | ⟨1, _⟩ => rfl)
  rw [e0, e1]
  rfl

/-- The reference's minimum at (b, n). -/
theorem min_apply (x0 : S64x512x4.Idx → EReal) (x1 : S1024x2.Idx → EReal) (b : Fin 64) (n : Fin 512) :
    val_main_v52 (F := Ideal) x0 x1 (ix2 b n)
      = (Finset.univ : Finset (Fin 1024)).fold min ⊤ (fun j =>
          (x0 (ix3 b n 0) - val_main_v43 (F := Ideal) x1 (ix2 j 0)) * (x0 (ix3 b n 0) - val_main_v43 (F := Ideal) x1 (ix2 j 0))
          + (x0 (ix3 b n 1) - val_main_v43 (F := Ideal) x1 (ix2 j 1)) * (x0 (ix3 b n 1) - val_main_v43 (F := Ideal) x1 (ix2 j 1))) := by
  unfold val_main_v52
  refine (Host.reduce_eq_fold_single FloatOps.minimumf _ _ reducesTo_S64x512x1024_S64x512_d2 reduces_targets h_S_ (ix2 b n)).trans ?_
  have el : (val_main_v51 (F := Ideal) x0 x1 ∘ reduces_targets.lift (ix2 b n))
      = fun j : Fin 1024 =>
          (x0 (ix3 b n 0) - val_main_v43 (F := Ideal) x1 (ix2 j 0)) * (x0 (ix3 b n 0) - val_main_v43 (F := Ideal) x1 (ix2 j 0))
          + (x0 (ix3 b n 1) - val_main_v43 (F := Ideal) x1 (ix2 j 1)) * (x0 (ix3 b n 1) - val_main_v43 (F := Ideal) x1 (ix2 j 1)) := by
    refine funext fun (j : Fin 1024) => ?_
    show val_main_v51 (F := Ideal) x0 x1 (reduces_targets.lift (ix2 b n) j) = _
    have hl : reduces_targets.lift (ix2 b n) j = ix3 b n j :=
      funext fun a => Fin.ext (by match a with | ⟨0, _⟩ => rfl | ⟨1, _⟩ => rfl | ⟨2, _⟩ => rfl)
    have i0 : idx_main_v51 (ix3 b n j) (0 : Fin 2) = ix4 b n j (0 : Fin 2) :=
      funext fun a => Fin.ext (by match a with | ⟨0, _⟩ => rfl | ⟨1, _⟩ => rfl | ⟨2, _⟩ => rfl | ⟨3, _⟩ => rfl)
    have i1 : idx_main_v51 (ix3 b n j) (1 : Fin 2) = ix4 b n j (1 : Fin 2) :=
      funext fun a => Fin.ext (by match a with | ⟨0, _⟩ => rfl | ⟨1, _⟩ => rfl | ⟨2, _⟩ => rfl | ⟨3, _⟩ => rfl)
    rw [hl, val_main_v51_apply, Fin.sum_univ_two, i0, i1, sq_diff_apply, sq_diff_apply]
    show Ideal.ofBits .f32 0x00000000#32 + _ = _
    rw [Ideal.ofBits_zero_f32, zero_add]
    rfl
  rw [el]
  show Finset.fold min (Ideal.ofBits .f32 0x7F800000#32) _ Finset.univ = _
  rw [ofBits_inf]
  rfl

end Cert.ReferenceIdeal.RefValue

end
-- ==== Proof.Augment.lean ====
/-
  The augmented target is finite when the target is.

  Each entry of the augmented target is chosen, by two `where`s, among an entry of the target itself,
  a gathered entry of the target, and an inserted entry (i+1) · target(0, k) / max(n, 1), where n is
  a 32-bit integer the program computes. An integer read as a float is a real number, max(n, 1) is at
  least 1 so the quotient is a quotient by a nonzero real, and so every entry is a real number
  whenever every entry of the target is. Nothing is used of how n is computed.
-/
import proofs.«181681_j43971875176871_2_alg».proof.Proof.Gen.ReferenceIdeal.Read
import Idealize.ShloMosaic.Lib.ValueIdx
import Idealize.ShloMosaic.PureOps.Ideal.Laws

noncomputable section

namespace Cert.ReferenceIdeal.Augment

open Cert.ReferenceIdeal Cert.ReferenceIdeal.Gen Cert.ReferenceIdeal.Read
open Idealize.ShloMosaic Idealize.ShloMosaic.ValueIdx

/-- An extended real that is a real number. -/
def IsReal (x : EReal) : Prop := ∃ r : ℝ, x = (r : EReal)

/-- A choice between two reals is a real. -/
theorem isReal_select (c : BitVec 1) (a b : EReal) (ha : IsReal a) (hb : IsReal b) : IsReal (Scalar.select c a b) := by
  unfold Scalar.select
  split
  · exact ha
  · exact hb

/-- The larger of a 32-bit integer and 1, read signed, is not zero. -/
theorem maxsi_one_ne_zero (n : BitVec 32) : (IntOp.maxsi n 1#32).toInt ≠ 0 := by
  unfold IntOp.maxsi
  split
  · rename_i h
    have h2 : (1#32 : BitVec 32).toInt < n.toInt := by simpa [BitVec.slt] using h
    have h1 : (1#32 : BitVec 32).toInt = 1 := by decide
    omega
  · decide

/-- A real times a real, over a nonzero real, is a real. -/
theorem isReal_div (a b d : ℝ) (hd : d ≠ 0) : IsReal (Ideal.div ((a : EReal) * (b : EReal)) (d : EReal)) := by
  rw [Ideal.div_coe hd, ← EReal.coe_mul, ← EReal.coe_mul]
  exact ⟨_, rfl⟩

/-- An inserted entry is a real. -/
theorem inserted_real (x1 : S1024x2.Idx → EReal) (hx : ∀ i, IsReal (x1 i)) (i : S1024x2.Idx) :
    IsReal (val_main_v27 (F := Ideal) x1 i) := by
  rw [val_main_v27_apply, val_main_v25_apply, val_main_v26_apply, val_main_v15_apply, val_main_v14_apply, val_main_v23_apply,
    val_main_v19_apply, val_main_v18_apply, val_main_v24_apply, val_main_v22_apply, val_main_v21_apply, val_main_v20_apply]
  obtain ⟨r, hr⟩ := hx (idx_main_v20 (idx_main_v21 (idx_main_v22 (idx_main_v24 i))))
  rw [hr]
  exact isReal_div (((val_main_v17 (F := Ideal) (idx_main_v19 (idx_main_v23 i))).toInt : ℤ) : ℝ) r
    (((IntOp.maxsi (val_main_v12 (F := Ideal) x1 (idx_main_v26 i)) 1#32).toInt : ℤ) : ℝ)
    (by exact_mod_cast maxsi_one_ne_zero _)

/-- A gathered entry is an entry of the target. -/
theorem gathered_real (x1 : S1024x2.Idx → EReal) (hx : ∀ i, IsReal (x1 i)) (i : S1024x2.Idx) :
    IsReal (val_main_v37 (F := Ideal) x1 i) := by
  unfold val_main_v37 Host.gather
  exact hx _

/-- Every entry of the augmented target is a real number when every entry of the target is. -/
theorem augmented_real (x1 : S1024x2.Idx → EReal) (hx : ∀ i, IsReal (x1 i)) (i : S1024x2.Idx) :
    IsReal (val_main_v43 (F := Ideal) x1 i) := by
  unfold val_main_v43
  refine isReal_select _ _ _ ?_ (hx i)
  rw [val_main_v41_apply]
  exact isReal_select _ _ _ (inserted_real x1 hx i) (gathered_real x1 hx i)

end Cert.ReferenceIdeal.Augment

end
-- ==== Proof.Bridge.lean ====
/-
  The kernel's rows are the reference's minima.

  Row 512·b + n of the kernel's output array is (x₀² + x₁²) plus the least over the targets of
  x₀·(-2 t₀) + x₁·(-2 t₁) + (t₀² + t₁²); the reference's minimum at (b, n) is the least over the targets
  of (x₀ - t₀)² + (x₁ - t₁)². For real query coordinates and real target coordinates these agree:
  the squares expand, and the query's squared norm, not being -∞, moves inside the minimum.
-/
import proofs.«181681_j43971875176871_2_alg».proof.Proof.NearestSq
import proofs.«181681_j43971875176871_2_alg».proof.Proof.OutArray
import proofs.«181681_j43971875176871_2_alg».proof.Proof.HostIndex
import proofs.«181681_j43971875176871_2_alg».proof.Proof.RefValue
import proofs.«181681_j43971875176871_2_alg».proof.Proof.Augment

noncomputable section

namespace Cert.Bridge

open Idealize.ShloMosaic Idealize.ShloMosaic.ValueIdx
open Cert.KernelIdeal.RowValue Cert.KernelIdeal.OutArray Cert.KernelIdeal.HostValue
open Cert.ReferenceIdeal.Augment

/-- The pattern of -2. -/
theorem ofBits_neg_two : Ideal.ofBits .f32 0xC0000000#32 = ((-2 : ℝ) : EReal) := by
  simp [Ideal.ofBits, Ideal.ieee]
  rw [← EReal.coe_mul]
  norm_num

/-- Row 512·b + n of the kernel's output is the reference's minimum at (b, n). -/
theorem row_eq_min (x0 : Cert.ReferenceIdeal.S64x512x4.Idx → EReal) (x1 : Cert.ReferenceIdeal.S1024x2.Idx → EReal)
    (hx0 : ∀ i, IsReal (x0 i)) (hT : ∀ i, IsReal (Cert.ReferenceIdeal.Read.val_main_v43 (F := Ideal) x1 i))
    (b : Fin 64) (n : Fin 512) :
    outArr (rowsTerm x0) (crossTerm (Cert.ReferenceIdeal.Read.val_main_v43 (F := Ideal) x1))
        (normTerm (Cert.ReferenceIdeal.Read.val_main_v43 (F := Ideal) x1))
        (ix2 (⟨b.val * 512 + n.val, by omega⟩ : Fin 32768) (0 : Fin 1))
      = Cert.ReferenceIdeal.Read.val_main_v52 (F := Ideal) x0 x1 (ix2 b n) := by
  rw [Cert.ReferenceIdeal.RefValue.min_apply]
  generalize hTd : Cert.ReferenceIdeal.Read.val_main_v43 (F := Ideal) x1 = T at hT ⊢
  show rowVal (rowsTerm x0 (ix2 (⟨b.val * 512 + n.val, by omega⟩ : Fin 32768) (0 : Fin 2)))
      (rowsTerm x0 (ix2 (⟨b.val * 512 + n.val, by omega⟩ : Fin 32768) (1 : Fin 2))) (crossTerm T) (normTerm T) = _
  rw [rowsTerm_apply x0 b n 0, rowsTerm_apply x0 b n 1]
  unfold rowVal
  simp only [crossTerm_apply0, crossTerm_apply1, normTerm_apply, ofBits_neg_two]
  obtain ⟨a0, ha0⟩ := hx0 (ix3 b n (⟨(0 : Fin 2).val, by omega⟩ : Fin 4))
  obtain ⟨a1, ha1⟩ := hx0 (ix3 b n (⟨(1 : Fin 2).val, by omega⟩ : Fin 4))
  choose t0 ht0 using fun j : Fin 1024 => hT (ix2 j 0)
  choose t1 ht1 using fun j : Fin 1024 => hT (ix2 j 1)
  have ha0' : x0 (ix3 b n (0 : Fin 4)) = (a0 : EReal) := ha0
  have ha1' : x0 (ix3 b n (1 : Fin 4)) = (a1 : EReal) := ha1
  rw [ha0, ha1, ha0', ha1']
  simp only [ht0, ht1]
  exact NearestSq.nearest_expand Finset.univ a0 a1 t0 t1

end Cert.Bridge

end
-- ==== Proof.PreFinite.lean ====
/-
  What the precondition says: every entry of both arguments is a real number.

  The precondition is the conjunction of two `all`s of |x| < +∞, one per argument, and it is stated
  to be 1. So each comparison bit is 1, and an extended real whose absolute value is below +∞ is
  neither infinity.
-/
import proofs.«181681_j43971875176871_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreFinite

open Idealize.ShloMosaic Cert.Pre_finite_inputs

instance : Subsingleton S_.Idx := ⟨fun a b => funext fun d => d.elim0⟩

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of each argument is a real number. -/
theorem real_of_pre [Facts] (a0 : FVec Ideal S64x512x4 .f32) (a1 : FVec Ideal S1024x2 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.PreFinite

end
-- ==== Proof.KernelRun.lean ====
/-
  The kernel's program, run: its result as a term of the two arguments.

  After the region the program reshapes the 32768 × 1 result to 64 × 512, drops column 0, averages
  each row over its 511 entries and sums the 64 averages. The reference ends with the same four
  steps applied to its 64 × 512 array of minima, so both results are one function `tailOf` of a
  64 × 512 array, and the two arrays are equal entry by entry (the bridge), for real inputs.
-/
import proofs.«181681_j43971875176871_2_alg».proof.Proof.OutArray
import proofs.«181681_j43971875176871_2_alg».proof.Proof.HostIndex
import proofs.«181681_j43971875176871_2_alg».proof.Proof.AugmentedTarget
import proofs.«181681_j43971875176871_2_alg».proof.Proof.Bridge
import proofs.«181681_j43971875176871_2_alg».proof.Proof.PreFinite
import Idealize.ShloMosaic.Lib.StableHlo.Run

set_option maxRecDepth 16384

noncomputable section

namespace Cert.KernelIdeal.KernelRun

open Cert.KernelIdeal Cert.KernelIdeal.Gen Cert.KernelIdeal.OutArray Cert.KernelIdeal.HostValue
open Idealize.ShloMosaic Idealize.ShloMosaic.TcCoe Idealize.ShloMosaic.ValueIdx Idealize.SL.Sem Idealize.ShloMosaic.StableHlo

/-- The last steps of both programs: drop column 0 of a 64 × 512 array, average each row over its
    511 entries, sum the 64 averages. -/
def tailOf (d : FVec Ideal S64x512 .f32) : FVec Ideal S_ .f32 :=
  Host.reduceAdd (F := Ideal)
    (Host.divf (F := Ideal)
      (Host.reduceAdd (F := Ideal) (extractStridedSlice S64x511 ![0, 1] d slices_S64x512_S64x511_0_1)
        (constant (F := Ideal) S_ .f32 0x00000000#32) reducesTo_S64x511_S64_d1 h_S_)
      (broadcastInDim S64 ![] bcast_S_S64 (constant (F := Ideal) S_ .f32 0x43FF8000#32)))
    (constant (F := Ideal) S_ .f32 0x00000000#32) reducesTo_S64_S_d0 h_S_

variable (m : (ℓ : Loc nD τ sig) → Buf (Elt Ideal) ℓ)

/-- The program's result after the tail, from the region's output array. -/
theorem tail_eq (c : Dev nD) :
    (Pipeline.afterTail₀ cfgs (dats m) 0 (V0 m) [hostOps1] c main_v67 : S_.Idx → EReal)
      = tailOf (shapeCast S64x512 ((dats m 0 c).arrAt 3 cfg0.N) shapeCasts_S32768x1_S64x512) := by
  unfold Pipeline.afterTail₀
  show StableHlo.after hostOps1 _ (Proc.devRef .tc main_v67) = _
  after_results
  have hw : Pipeline.withArrays (cfgs 0).spec c (V0 m c) (fun w => (dats m 0 c).arrAt w (cfgs 0).N) (Proc.devRef .tc main_v61)
      = (dats m 0 c).arrAt 3 cfg0.N :=
    Pipeline.withArrays_arr spec0 launch0.win.arr_inj c _ _ 3
  rw [hw]
  rfl

/-- The reference's result is the same tail of its array of minima. -/
theorem ref_tail (x0 : Cert.ReferenceIdeal.S64x512x4.Idx → EReal) (x1 : Cert.ReferenceIdeal.S1024x2.Idx → EReal) :
    Cert.ReferenceIdeal.Read.val_main_v57 (F := Ideal) x0 x1
      = tailOf (Cert.ReferenceIdeal.Read.val_main_v52 (F := Ideal) x0 x1) := by
  unfold Cert.ReferenceIdeal.Read.val_main_v57 Cert.ReferenceIdeal.Read.val_main_v56 Cert.ReferenceIdeal.Read.val_main_v55
    Cert.ReferenceIdeal.Read.val_main_v54 Cert.ReferenceIdeal.Read.val_main_v53 Cert.ReferenceIdeal.Read.val_main_cst_10
    Cert.ReferenceIdeal.Read.val_main_cst_11 Cert.ReferenceIdeal.Read.val_main_cst_12 tailOf
  rfl

/-- The kernel's output array, reshaped to 64 × 512, is the reference's array of minima, when every
    entry of the first argument and of the augmented target is a real number. -/
theorem reshaped_eq_minima (x0 : Cert.ReferenceIdeal.S64x512x4.Idx → EReal) (x1 : Cert.ReferenceIdeal.S1024x2.Idx → EReal)
    (hx0 : ∀ i, Cert.ReferenceIdeal.Augment.IsReal (x0 i))
    (hT : ∀ i, Cert.ReferenceIdeal.Augment.IsReal (Cert.ReferenceIdeal.Read.val_main_v43 (F := Ideal) x1 i)) :
    shapeCast S64x512
        (outArr (rowsTerm x0) (crossTerm (Cert.ReferenceIdeal.Read.val_main_v43 (F := Ideal) x1))
          (normTerm (Cert.ReferenceIdeal.Read.val_main_v43 (F := Ideal) x1)))
        shapeCasts_S32768x1_S64x512
      = Cert.ReferenceIdeal.Read.val_main_v52 (F := Ideal) x0 x1 := by
  funext i
  obtain ⟨b, n, rfl⟩ : ∃ (b : Fin 64) (n : Fin 512), i = ix2 b n := ⟨i 0, i 1, eq_ix2 i⟩
  refine (shapeCast_apply _ shapeCasts_S32768x1_S64x512 (ix2 b n)
    (ix2 (⟨b.val * 512 + n.val, by omega⟩ : Fin 32768) (0 : Fin 1)) ?_).trans (Cert.Bridge.row_eq_min x0 x1 hx0 hT b n)
  rewrite [Shape.rowMajor_val_two, Shape.rowMajor_val_two]
  show (b.val * 512 + n.val) * 1 + 0 = b.val * 512 + n.val
  omega

/-- The query rows as the region finds them: the first argument's first two channels, flattened. -/
theorem rows_entry (c : Dev nD) :
    V m c (Pipeline.arrRef spec0 0) = rowsTerm (m ((c.tc : Thread nD τ).loc main_arg0)) := by
  show V0 m c (Proc.devRef .tc main_v45) = _
  rw [V0_eq, rows_of, Vmid_arg0]

/-- The 2 × 1024 operand as the region finds it, over the reference's augmented target. -/
theorem cross_entry (c : Dev nD) :
    V m c (Pipeline.arrRef spec0 1)
      = crossTerm (Cert.ReferenceIdeal.Read.val_main_v43 (F := Ideal) (m ((c.tc : Thread nD τ).loc main_arg1))) := by
  show V0 m c (Proc.devRef .tc main_v60) = _
  rw [V0_eq, cross_of, Vmid_target]

/-- The squared norms' row as the region finds it, over the reference's augmented target. -/
theorem norm_entry (c : Dev nD) :
    V m c (Pipeline.arrRef spec0 2)
      = normTerm (Cert.ReferenceIdeal.Read.val_main_v43 (F := Ideal) (m ((c.tc : Thread nD τ).loc main_arg1))) := by
  show V0 m c (Proc.devRef .tc main_v53) = _
  rw [V0_eq, norm_of, Vmid_target]

/-- The program's result is the reference's term of the two arguments, when their entries are real. -/
theorem result_eq (c : Dev nD)
    (hx0 : ∀ i, Cert.ReferenceIdeal.Augment.IsReal (m ((c.tc : Thread nD τ).loc main_arg0) i))
    (hx1 : ∀ i, Cert.ReferenceIdeal.Augment.IsReal (m ((c.tc : Thread nD τ).loc main_arg1) i)) :
    (Pipeline.afterTail₀ cfgs (dats m) 0 (V0 m) [hostOps1] c main_v67 : S_.Idx → EReal)
      = Cert.ReferenceIdeal.Read.val_main_v57 (F := Ideal) (m ((c.tc : Thread nD τ).loc main_arg0))
          (m ((c.tc : Thread nD τ).loc main_arg1)) := by
  rw [tail_eq, OutArray.final, rows_entry, cross_entry, norm_entry,
    reshaped_eq_minima _ _ hx0 (Cert.ReferenceIdeal.Augment.augmented_real _ hx1), ← ref_tail]

/-- The kernel's program run from a memory whose argument entries are real: every weakly fair
    execution terminates with the result at the reference's term and the arguments unchanged. -/
theorem run (ρ : Dev nD → PrngReg)
    (hreal : ∀ c : Dev nD, (∀ i, Cert.ReferenceIdeal.Augment.IsReal (m ((c.tc : Thread nD τ).loc main_arg0) i))
      ∧ (∀ i, Cert.ReferenceIdeal.Augment.IsReal (m ((c.tc : Thread nD τ).loc main_arg1) i))) :
    θ_run defs (onTc (τ := τ) (main (F := Ideal))) ⟨m, fun _ => 0, ρ⟩ (fun r => ∀ c : Dev nD,
      r.2.mem ((c.tc : Thread nD τ).loc main_v67)
        = Cert.ReferenceIdeal.Read.val_main_v57 (F := Ideal) (m ((c.tc : Thread nD τ).loc main_arg0))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v67 (Pipeline.mem_restRefs_of main_v67 (by decide) (by decide))).trans (result_eq m c (hreal c).1 (hreal c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.lean ====
/-
  Nearest-target squared distance, summed: the kernel against its reference, over the extended reals.

  Both programs first build an augmented target T (1024 points of the plane) from the second argument
  by the same host operations. The reference then takes, for each of the 64 × 512 query points
  (x₀, x₁) (the first two channels of the first argument), the least over the targets of
  (x₀ - t₀)² + (x₁ - t₁)²; the kernel computes the same number as (x₀² + x₁²) plus the least over the
  targets of x₀·(-2 t₀) + x₁·(-2 t₁) + (t₀² + t₁²), the cross term as a 512×2 by 2×1024 product, eight
  chunks of 512 rows per grid point and eight grid points. Both then drop column 0, average each row
  and sum the averages. The two expressions agree when the coordinates are real numbers: the squares
  expand in ℝ, and the query's squared norm, not being -∞, moves inside a minimum taken from +∞. The
  query coordinates are real by the precondition; the targets are real because each is an entry of
  the second argument or a real multiple of one divided by an integer that is at least 1.

  The modules: NearestSq (the arithmetic), RowValue (one row of the body's payload), BlockPieces and
  OutArray (the loop's stores, the blocks, the whole output array), HostValue, HostIndex and
  AugmentedTarget (the host operations around the region), RefValue (the reference's minimum),
  Augment and PreFinite (finiteness), Bridge (the two sides at an index), KernelRun (the kernel's run).
-/
import proofs.«181681_j43971875176871_2_alg».proof.Defs
import proofs.«181681_j43971875176871_2_alg».proof.Proof.Gen.Kernel
import proofs.«181681_j43971875176871_2_alg».proof.Proof.Gen.Kernel.Frame
import proofs.«181681_j43971875176871_2_alg».proof.Proof.Gen.KernelIdeal
import proofs.«181681_j43971875176871_2_alg».proof.Proof.Gen.KernelIdeal.Frame
import proofs.«181681_j43971875176871_2_alg».proof.Proof.Gen.ReferenceIdeal
import proofs.«181681_j43971875176871_2_alg».proof.Proof.Gen.Pre_finite_inputs
import proofs.«181681_j43971875176871_2_alg».proof.Proof.Gen.ReferenceIdeal.Run
import proofs.«181681_j43971875176871_2_alg».proof.Proof.Gen.ReferenceIdeal.Read
import proofs.«181681_j43971875176871_2_alg».proof.Proof.KernelRun
import Idealize.ShloMosaic.Adequacy
import Idealize.ShloMosaic.Init

noncomputable section

namespace Cert.Proof

open Idealize.ShloMosaic Idealize.SL.Sem

/-- The word-level kernel's program runs and leaves its arguments as they were. -/
theorem frame_kernel : Cert.frame_Kernel := fun m ρ _ => Cert.Kernel.Gen.frame m ρ

/-- So does the idealized kernel's. -/
theorem frame_kernelIdeal : Cert.frame_KernelIdeal := fun m ρ _ => Cert.KernelIdeal.Gen.frame m ρ

/-- So does the reference's: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, whose entries the precondition makes real, both programs
    end with the reference's term of the arguments. -/
theorem algebraic : Cert.algebraic_KernelIdeal_ReferenceIdeal := by
  intro m ρ m' ρ' hpre hagree
  have hreal : ∀ c : Dev Cert.KernelIdeal.nD,
      (∀ i, Cert.ReferenceIdeal.Augment.IsReal
        (m ((c.tc : Thread Cert.KernelIdeal.nD Cert.KernelIdeal.τ).loc Cert.KernelIdeal.main_arg0) i))
      ∧ (∀ i, Cert.ReferenceIdeal.Augment.IsReal
        (m ((c.tc : Thread Cert.KernelIdeal.nD Cert.KernelIdeal.τ).loc Cert.KernelIdeal.main_arg1) i)) :=
    fun c => Cert.PreFinite.real_of_pre _ _ (hpre c)
  refine ⟨fun c => Cert.ReferenceIdeal.Read.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v57_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
